-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x1024 .f32) (main_arg1 : FVec F S2048x1024 .f32) (main_arg2 : FVec F S2048x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S2048x1024 : Shape := ⟨2, ![2048, 1024]⟩
abbrev S1024 : Shape := ⟨1, ![1024]⟩
abbrev S2048x4096 : Shape := ⟨2, ![2048, 4096]⟩
abbrev S4096 : Shape := ⟨1, ![4096]⟩
abbrev S1x4096 : Shape := ⟨2, ![1, 4096]⟩
abbrev S256x1024 : Shape := ⟨2, ![256, 1024]⟩
abbrev S1024x4096 : Shape := ⟨2, ![1024, 4096]⟩
abbrev S256x4096 : Shape := ⟨2, ![256, 4096]⟩

abbrev nBuf : Space → Nat
  | .hbm => 17
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S2048x4096, .f32⟩
  | .hbm, ⟨12, _⟩ => ⟨S4096, .f32⟩
  | .hbm, ⟨13, _⟩ => ⟨S1x4096, .f32⟩
  | .hbm, ⟨14, _⟩ => ⟨S2048x4096, .bf16⟩
  | .hbm, ⟨15, _⟩ => ⟨S2048x1024, .f32⟩
  | .hbm, ⟨16, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  shapeCasts_S4096_S1x4096 : S4096.ShapeCasts S1x4096
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S2048x4096_S1024x4096_0_0 : ∀ a, (![0, 0] : Fin 2 → Nat) a + S1024x4096.size a ≤ S2048x4096.size a
  h_S1024x4096 : 0 < S1024x4096.numel
  shapeCasts_S1024x4096_S1024x4096 : S1024x4096.ShapeCasts S1024x4096
  inb_S2048x4096_S1024x4096_1024_0 : ∀ a, (![1024, 0] : Fin 2 → Nat) a + S1024x4096.size a ≤ S2048x4096.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S2048x1024.size a
  hwx0_1 : ∀ i : grid0.Coords, EltTy.bits .f32 = 32 ∨ (Rect.block (s := S2048x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S2048x1024.size a
  hwx0_2 : ∀ i : grid0.Coords, EltTy.bits .f32 = 32 ∨ (Rect.block (s := S2048x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S2048x1024.size a
  hwx0_5 : ∀ i : grid0.Coords, EltTy.bits .f32 = 32 ∨ (Rect.block (s := S2048x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S2048x1024.size a
  hwx0_6 : ∀ i : grid0.Coords, EltTy.bits .f32 = 32 ∨ (Rect.block (s := S2048x1024) S256x1024.size (cc0_transform_6 i) (hinb0_6 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S1024 : Shape := ⟨1, ![1024]⟩
abbrev S2048x2048 : Shape := ⟨2, ![2048, 2048]⟩
abbrev S1x1024 : Shape := ⟨2, ![1, 1024]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S2048x2048, .f32⟩
  | .hbm, ⟨12, _⟩ => ⟨S2048x1024, .f32⟩
  | .hbm, ⟨13, _⟩ => ⟨S1x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  concatenates_S2048x1024_S2048x1024_S2048x2048_d1 : Shape.Concatenates [S2048x1024, S2048x1024] S2048x2048 1
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  dot_S2048x2048_S2048x1024_S2048x1024_1_0_0_1_n_n_wf : DotDims.WF S2048x2048 S2048x1024 S2048x1024 [1] [0] [0] [1] [] []

variable [Facts₀]

def dot_S2048x2048_S2048x1024_S2048x1024_1_0_0_1_n_n : DotDims S2048x2048 S2048x1024 S2048x1024 where
  lhsContracting := [1]
  rhsContracting := [0]
  lhsNonContracting := [0]
  rhsNonContracting := [1]
  lhsBatch := []
  rhsBatch := []
  wf := dot_S2048x2048_S2048x1024_S2048x1024_1_0_0_1_n_n_wf

class Facts : Prop extends Facts₀ where

variable [Facts]
-- ==== Proof.FrameBits.lean ====
import proofs.«141490_j4123168604852_2_alg».proof.Proof.Gen.Kernel.Launch
import proofs.«141490_j4123168604852_2_alg».proof.Proof.Gen.Kernel.Skeleton
import proofs.«141490_j4123168604852_2_alg».proof.Proof.Gen.Kernel.Points
import Idealize.ShloMosaic.Lib.Pipeline.FrameBody
import Idealize.ShloMosaic.Lib.Ring
import Idealize.ShloMosaic.Lib.Tactic

/-!
# The program runs to its end and leaves its arguments alone

The program joins the four weight matrices side by side, joins the four bias vectors and stands the result up as one row,
rounds the joined weights, and then runs one pipelined region over 8 tiles of 256 rows. At each tile the body reads five
staged blocks — the tile's rows of `x`, of the hidden state and of the cell state, and, staged once and kept, the whole
joined weight array and the bias row — and overwrites the whole of its two output blocks. Nothing else is touched: no
scratch, no semaphore of its own, no transfer of its own.

So the frame argument has three parts. Before the region, the four host lines write only their own fresh results, so every
argument array is found as launched (`entry_main_argK`). Inside the region, each input block is found in its staging
buffer, whether it was fetched at this tile or earlier (`beforeW`), the body is run once, symbolically, on those blocks
(`body_triple`), and what it leaves in each output buffer is the one store's value (`outCell`, `outHid`). The pipeline's
own theorem then gives the run (`run_region`), whose post names every output array, and the frame statement is read off it
(`frame`). Everything is stated for any float interpretation `F`.
-/

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the region -/

/-- Core `c`'s buffers when the region is entered: the launch memory after the four host lines. -/
abbrev entry (c : Dev nD) (b : Ref sig .tc) : Buf (Elt F) ((c : Thread nD τ).loc b) :=
  StableHlo.after (List.flatten [hostOps0]) (fun b => m (c, b)) b

/-- The host lines allocate nothing. -/
theorem hostOps0_fresh : (hostOps0 : List (HloOp τ sig (Elt F))).Forall fun op => op.fresh = ∅ := by
  simp only [List.Forall]; repeat' constructor

/-- The program is its host lines followed by the region. -/
theorem hmain (𝒱₀ : Variants) : Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0] hostOps0_sub hostOps0_fresh main_chain

/-- No host operation before the region writes `main_arg0`: the region finds it as launched. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
/-- No host operation before the region writes `main_arg1`: the region finds it as launched. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
/-- No host operation before the region writes `main_arg2`: the region finds it as launched. -/
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
/-- No host operation before the region writes `main_arg3`: the region finds it as launched. -/
theorem entry_main_arg3 (c : Dev nD) : entry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
/-- No host operation before the region writes `main_arg4`: the region finds it as launched. -/
theorem entry_main_arg4 (c : Dev nD) : entry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
/-- No host operation before the region writes `main_arg5`: the region finds it as launched. -/
theorem entry_main_arg5 (c : Dev nD) : entry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
/-- No host operation before the region writes `main_arg6`: the region finds it as launched. -/
theorem entry_main_arg6 (c : Dev nD) : entry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
/-- No host operation before the region writes `main_arg7`: the region finds it as launched. -/
theorem entry_main_arg7 (c : Dev nD) : entry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
/-- No host operation before the region writes `main_arg8`: the region finds it as launched. -/
theorem entry_main_arg8 (c : Dev nD) : entry m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
/-- No host operation before the region writes `main_arg9`: the region finds it as launched. -/
theorem entry_main_arg9 (c : Dev nD) : entry m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
/-- No host operation before the region writes `main_arg10`: the region finds it as launched. -/
theorem entry_main_arg10 (c : Dev nD) : entry m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))

/-! ## The windows' blocks -/

/-- Window `w`'s block at tile `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every point, whether the point fetches it or finds it
    already there (its block index has not moved since the fetch). -/
theorem before0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point, whether the point fetches it or finds it
    already there (its block index has not moved since the fetch). -/
theorem before1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point, whether the point fetches it or finds it
    already there (its block index has not moved since the fetch). -/
theorem before2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every point, whether the point fetches it or finds it
    already there (its block index has not moved since the fetch). -/
theorem before3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds its block at every point, whether the point fetches it or finds it
    already there (its block index has not moved since the fetch). -/
theorem before4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## From the region's run to the frame statement -/

/-- For any proof data whose arrays are the region-entry contents, a run ending in the pipeline's post — every staged array at
    what its write-backs leave, every other buffer as the region found it — leaves the eleven argument arrays as launched:
    three are staged inputs, never written back; the other eight are staged by no window. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (entry_main_arg0 m c))),
      ((h c).1 2).trans (((dats 0 c).arrAt_in 2 rfl _).trans ((hA c 2).trans (entry_main_arg1 m c))),
      ((h c).1 1).trans (((dats 0 c).arrAt_in 1 rfl _).trans ((hA c 1).trans (entry_main_arg2 m c))),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c)⟩) h

/-! ## What the body reads and writes -/

/-- A whole 256 × 1024 block. -/
abbrev rTile : Rect S256x1024 := Rect.unit (s := S256x1024) ![0, 0] S256x1024.size inb_S256x1024_S256x1024_0_0
/-- The upper 1024 rows of the joined weights: the rows that meet `x`'s columns. -/
abbrev rUpper : Rect S2048x4096 := Rect.unit (s := S2048x4096) ![0, 0] S1024x4096.size inb_S2048x4096_S1024x4096_0_0
/-- The lower 1024 rows: the rows that meet the hidden state's columns. -/
abbrev rLower : Rect S2048x4096 := Rect.unit (s := S2048x4096) ![1024, 0] S1024x4096.size inb_S2048x4096_S1024x4096_1024_0
/-- The whole bias row. -/
abbrev rBias : Rect S1x4096 := Rect.unit (s := S1x4096) ![0, 0] S1x4096.size inb_S1x4096_S1x4096_0_0

/-- The new-cell-state buffer after the body: its one store, over the five input blocks. -/
def outCell (x0 x1 x2 : Vec F S256x1024 .f32) (x3 : Vec F S2048x4096 .bf16) (x4 : Vec F S1x4096 .f32) : Vec F S256x1024 .f32 :=
  View.canon [⟨rTile, k0_pay1 (k0_pay4 (View.ld x0 rTile) (View.ld x1 rTile) (View.ld x3 rUpper) (View.ld x3 rLower) (View.ld x4 rBias)) (k0_pay5 (View.ld x0 rTile) (View.ld x1 rTile) (View.ld x3 rUpper) (View.ld x3 rLower) (View.ld x4 rBias)) (k0_pay6 (View.ld x0 rTile) (View.ld x1 rTile) (View.ld x3 rUpper) (View.ld x3 rLower) (View.ld x4 rBias)) (View.ld x2 rTile)⟩]

/-- The new-hidden-state buffer after the body. -/
def outHid (x0 x1 x2 : Vec F S256x1024 .f32) (x3 : Vec F S2048x4096 .bf16) (x4 : Vec F S1x4096 .f32) : Vec F S256x1024 .f32 :=
  View.canon [⟨rTile, k0_pay2 (k0_pay4 (View.ld x0 rTile) (View.ld x1 rTile) (View.ld x3 rUpper) (View.ld x3 rLower) (View.ld x4 rBias)) (k0_pay5 (View.ld x0 rTile) (View.ld x1 rTile) (View.ld x3 rUpper) (View.ld x3 rLower) (View.ld x4 rBias)) (k0_pay6 (View.ld x0 rTile) (View.ld x1 rTile) (View.ld x3 rUpper) (View.ld x3 rLower) (View.ld x4 rBias)) (k0_pay7 (View.ld x0 rTile) (View.ld x1 rTile) (View.ld x3 rUpper) (View.ld x3 rLower) (View.ld x4 rBias)) (View.ld x2 rTile)⟩]

/-- One store of a whole block covers the block. -/
theorem cover_tile (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

/-! ## The body, run once -/

set_option maxHeartbeats 1000000 in
/-- On whole staging buffers, the five inputs' at contents `x0 … x4` and the two outputs' at anything, the body runs to its
    end holding the inputs' as they were and the outputs' at `outCell`, `outHid` of the inputs'. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x0 x1 x2 : Vec F S256x1024 .f32) (x3 : Vec F S2048x4096 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outCell x0 x1 x2 x3 x4) ∗ owns (c : Thread nD τ) arg7 fullShare (outHid x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_tile _)
  iexists _; isplitr
  swap; · iexact H6
  ipureintro
  exact View.read_writes_eq_canon _ _ _ (cover_tile _)

/-! ## The pipeline's proof data -/

/-- On core `c`: the arrays as the region finds them; after the body at tile `t` each input's buffer at its block and each
    output's at the body's result on the input blocks; the invariant is the untouched rest; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => outCell (blockAt m c 0 t) (blockAt m c 1 t) (blockAt m c 2 t) (blockAt m c 3 t) (blockAt m c 4 t)
    | ⟨6, _⟩ => outHid (blockAt m c 0 t) (blockAt m c 1 t) (blockAt m c 2 t) (blockAt m c 3 t) (blockAt m c 4 t)
  Φ _ := Pipeline.ΦA spec0 c
  q _ := fullShare
  owed _ := 0

/-- The proof data's arrays are the region-entry contents (by projection, never by unfolding the host lines). -/
theorem A_eq (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t
    = outCell (blockAt m c 0 t) (blockAt m c 1 t) (blockAt m c 2 t) (blockAt m c 3 t) (blockAt m c 4 t) := by dsimp only [dats]
theorem after6 (c : Dev nD) (t : Fin cfg0.N) : (dats m 0 c).after 6 t
    = outHid (blockAt m c 0 t) (blockAt m c 1 t) (blockAt m c 2 t) (blockAt m c 3 t) (blockAt m c 4 t) := by dsimp only [dats]

theorem before0 (c : Dev nD) (t : Fin cfg0.N) (d) : (dats m 0 c).before 0 t d = blockAt m c 0 t :=
  before0_of m (dats m 0 c) (A_eq m c 0) (after0 m c) t d
theorem before1 (c : Dev nD) (t : Fin cfg0.N) (d) : (dats m 0 c).before 1 t d = blockAt m c 1 t :=
  before1_of m (dats m 0 c) (A_eq m c 1) (after1 m c) t d
theorem before2 (c : Dev nD) (t : Fin cfg0.N) (d) : (dats m 0 c).before 2 t d = blockAt m c 2 t :=
  before2_of m (dats m 0 c) (A_eq m c 2) (after2 m c) t d
theorem before3 (c : Dev nD) (t : Fin cfg0.N) (d) : (dats m 0 c).before 3 t d = blockAt m c 3 t :=
  before3_of m (dats m 0 c) (A_eq m c 3) (after3 m c) t d
theorem before4 (c : Dev nD) (t : Fin cfg0.N) (d) : (dats m 0 c).before 4 t d = blockAt m c 4 t :=
  before4_of m (dats m 0 c) (A_eq m c 4) (after4 m c) t d

/-! ## The body obligation -/

/-- What the body is called with at tile `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any tile: the inputs' buffers hold their blocks, so `body_triple` applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has each
    staged array at what the proof data's write-backs leave and every other unscoped buffer as the region found it. -/
theorem run_region : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := A_eq m) (hΦ := fun _ _ => rfl)

/-- The frame statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_region m ρ)

end Cert.Kernel.Frame

end
-- ==== Proof.FrameIdeal.lean ====
import proofs.«141490_j4123168604852_2_alg».proof.Proof.Gen.KernelIdeal.Launch
import proofs.«141490_j4123168604852_2_alg».proof.Proof.Gen.KernelIdeal.Skeleton
import proofs.«141490_j4123168604852_2_alg».proof.Proof.Gen.KernelIdeal.Points
import Idealize.ShloMosaic.Lib.Pipeline.FrameBody
import Idealize.ShloMosaic.Lib.Ring
import Idealize.ShloMosaic.Lib.Tactic

/-!
# The program runs to its end and leaves its arguments alone

The program joins the four weight matrices side by side, joins the four bias vectors and stands the result up as one row,
rounds the joined weights, and then runs one pipelined region over 8 tiles of 256 rows. At each tile the body reads five
staged blocks — the tile's rows of `x`, of the hidden state and of the cell state, and, staged once and kept, the whole
joined weight array and the bias row — and overwrites the whole of its two output blocks. Nothing else is touched: no
scratch, no semaphore of its own, no transfer of its own.

So the frame argument has three parts. Before the region, the four host lines write only their own fresh results, so every
argument array is found as launched (`entry_main_argK`). Inside the region, each input block is found in its staging
buffer, whether it was fetched at this tile or earlier (`beforeW`), the body is run once, symbolically, on those blocks
(`body_triple`), and what it leaves in each output buffer is the one store's value (`outCell`, `outHid`). The pipeline's
own theorem then gives the run (`run_region`), whose post names every output array, and the frame statement is read off it
(`frame`). Everything is stated for any float interpretation `F`.
-/

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the region -/

/-- Core `c`'s buffers when the region is entered: the launch memory after the four host lines. -/
abbrev entry (c : Dev nD) (b : Ref sig .tc) : Buf (Elt F) ((c : Thread nD τ).loc b) :=
  StableHlo.after (List.flatten [hostOps0]) (fun b => m (c, b)) b

/-- The host lines allocate nothing. -/
theorem hostOps0_fresh : (hostOps0 : List (HloOp τ sig (Elt F))).Forall fun op => op.fresh = ∅ := by
  simp only [List.Forall]; repeat' constructor

/-- The program is its host lines followed by the region. -/
theorem hmain (𝒱₀ : Variants) : Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0] hostOps0_sub hostOps0_fresh main_chain

/-- No host operation before the region writes `main_arg0`: the region finds it as launched. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
/-- No host operation before the region writes `main_arg1`: the region finds it as launched. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
/-- No host operation before the region writes `main_arg2`: the region finds it as launched. -/
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
/-- No host operation before the region writes `main_arg3`: the region finds it as launched. -/
theorem entry_main_arg3 (c : Dev nD) : entry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
/-- No host operation before the region writes `main_arg4`: the region finds it as launched. -/
theorem entry_main_arg4 (c : Dev nD) : entry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
/-- No host operation before the region writes `main_arg5`: the region finds it as launched. -/
theorem entry_main_arg5 (c : Dev nD) : entry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
/-- No host operation before the region writes `main_arg6`: the region finds it as launched. -/
theorem entry_main_arg6 (c : Dev nD) : entry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
/-- No host operation before the region writes `main_arg7`: the region finds it as launched. -/
theorem entry_main_arg7 (c : Dev nD) : entry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
/-- No host operation before the region writes `main_arg8`: the region finds it as launched. -/
theorem entry_main_arg8 (c : Dev nD) : entry m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
/-- No host operation before the region writes `main_arg9`: the region finds it as launched. -/
theorem entry_main_arg9 (c : Dev nD) : entry m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
/-- No host operation before the region writes `main_arg10`: the region finds it as launched. -/
theorem entry_main_arg10 (c : Dev nD) : entry m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))

/-! ## The windows' blocks -/

/-- Window `w`'s block at tile `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every point, whether the point fetches it or finds it
    already there (its block index has not moved since the fetch). -/
theorem before0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point, whether the point fetches it or finds it
    already there (its block index has not moved since the fetch). -/
theorem before1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point, whether the point fetches it or finds it
    already there (its block index has not moved since the fetch). -/
theorem before2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every point, whether the point fetches it or finds it
    already there (its block index has not moved since the fetch). -/
theorem before3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds its block at every point, whether the point fetches it or finds it
    already there (its block index has not moved since the fetch). -/
theorem before4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## From the region's run to the frame statement -/

/-- For any proof data whose arrays are the region-entry contents, a run ending in the pipeline's post — every staged array at
    what its write-backs leave, every other buffer as the region found it — leaves the eleven argument arrays as launched:
    three are staged inputs, never written back; the other eight are staged by no window. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (entry_main_arg0 m c))),
      ((h c).1 2).trans (((dats 0 c).arrAt_in 2 rfl _).trans ((hA c 2).trans (entry_main_arg1 m c))),
      ((h c).1 1).trans (((dats 0 c).arrAt_in 1 rfl _).trans ((hA c 1).trans (entry_main_arg2 m c))),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c)⟩) h

/-! ## What the body reads and writes -/

/-- A whole 256 × 1024 block. -/
abbrev rTile : Rect S256x1024 := Rect.unit (s := S256x1024) ![0, 0] S256x1024.size inb_S256x1024_S256x1024_0_0
/-- The upper 1024 rows of the joined weights: the rows that meet `x`'s columns. -/
abbrev rUpper : Rect S2048x4096 := Rect.unit (s := S2048x4096) ![0, 0] S1024x4096.size inb_S2048x4096_S1024x4096_0_0
/-- The lower 1024 rows: the rows that meet the hidden state's columns. -/
abbrev rLower : Rect S2048x4096 := Rect.unit (s := S2048x4096) ![1024, 0] S1024x4096.size inb_S2048x4096_S1024x4096_1024_0
/-- The whole bias row. -/
abbrev rBias : Rect S1x4096 := Rect.unit (s := S1x4096) ![0, 0] S1x4096.size inb_S1x4096_S1x4096_0_0

/-- The new-cell-state buffer after the body: its one store, over the five input blocks. -/
def outCell (x0 x1 x2 : Vec F S256x1024 .f32) (x3 : Vec F S2048x4096 .bf16) (x4 : Vec F S1x4096 .f32) : Vec F S256x1024 .f32 :=
  View.canon [⟨rTile, k0_pay1 (k0_pay4 (View.ld x0 rTile) (View.ld x1 rTile) (View.ld x3 rUpper) (View.ld x3 rLower) (View.ld x4 rBias)) (k0_pay5 (View.ld x0 rTile) (View.ld x1 rTile) (View.ld x3 rUpper) (View.ld x3 rLower) (View.ld x4 rBias)) (k0_pay6 (View.ld x0 rTile) (View.ld x1 rTile) (View.ld x3 rUpper) (View.ld x3 rLower) (View.ld x4 rBias)) (View.ld x2 rTile)⟩]

/-- The new-hidden-state buffer after the body. -/
def outHid (x0 x1 x2 : Vec F S256x1024 .f32) (x3 : Vec F S2048x4096 .bf16) (x4 : Vec F S1x4096 .f32) : Vec F S256x1024 .f32 :=
  View.canon [⟨rTile, k0_pay2 (k0_pay4 (View.ld x0 rTile) (View.ld x1 rTile) (View.ld x3 rUpper) (View.ld x3 rLower) (View.ld x4 rBias)) (k0_pay5 (View.ld x0 rTile) (View.ld x1 rTile) (View.ld x3 rUpper) (View.ld x3 rLower) (View.ld x4 rBias)) (k0_pay6 (View.ld x0 rTile) (View.ld x1 rTile) (View.ld x3 rUpper) (View.ld x3 rLower) (View.ld x4 rBias)) (k0_pay7 (View.ld x0 rTile) (View.ld x1 rTile) (View.ld x3 rUpper) (View.ld x3 rLower) (View.ld x4 rBias)) (View.ld x2 rTile)⟩]

/-- One store of a whole block covers the block. -/
theorem cover_tile (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

/-! ## The body, run once -/

set_option maxHeartbeats 1000000 in
/-- On whole staging buffers, the five inputs' at contents `x0 … x4` and the two outputs' at anything, the body runs to its
    end holding the inputs' as they were and the outputs' at `outCell`, `outHid` of the inputs'. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x0 x1 x2 : Vec F S256x1024 .f32) (x3 : Vec F S2048x4096 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outCell x0 x1 x2 x3 x4) ∗ owns (c : Thread nD τ) arg7 fullShare (outHid x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_tile _)
  iexists _; isplitr
  swap; · iexact H6
  ipureintro
  exact View.read_writes_eq_canon _ _ _ (cover_tile _)

/-! ## The pipeline's proof data -/

/-- On core `c`: the arrays as the region finds them; after the body at tile `t` each input's buffer at its block and each
    output's at the body's result on the input blocks; the invariant is the untouched rest; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => outCell (blockAt m c 0 t) (blockAt m c 1 t) (blockAt m c 2 t) (blockAt m c 3 t) (blockAt m c 4 t)
    | ⟨6, _⟩ => outHid (blockAt m c 0 t) (blockAt m c 1 t) (blockAt m c 2 t) (blockAt m c 3 t) (blockAt m c 4 t)
  Φ _ := Pipeline.ΦA spec0 c
  q _ := fullShare
  owed _ := 0

/-- The proof data's arrays are the region-entry contents (by projection, never by unfolding the host lines). -/
theorem A_eq (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t
    = outCell (blockAt m c 0 t) (blockAt m c 1 t) (blockAt m c 2 t) (blockAt m c 3 t) (blockAt m c 4 t) := by dsimp only [dats]
theorem after6 (c : Dev nD) (t : Fin cfg0.N) : (dats m 0 c).after 6 t
    = outHid (blockAt m c 0 t) (blockAt m c 1 t) (blockAt m c 2 t) (blockAt m c 3 t) (blockAt m c 4 t) := by dsimp only [dats]

theorem before0 (c : Dev nD) (t : Fin cfg0.N) (d) : (dats m 0 c).before 0 t d = blockAt m c 0 t :=
  before0_of m (dats m 0 c) (A_eq m c 0) (after0 m c) t d
theorem before1 (c : Dev nD) (t : Fin cfg0.N) (d) : (dats m 0 c).before 1 t d = blockAt m c 1 t :=
  before1_of m (dats m 0 c) (A_eq m c 1) (after1 m c) t d
theorem before2 (c : Dev nD) (t : Fin cfg0.N) (d) : (dats m 0 c).before 2 t d = blockAt m c 2 t :=
  before2_of m (dats m 0 c) (A_eq m c 2) (after2 m c) t d
theorem before3 (c : Dev nD) (t : Fin cfg0.N) (d) : (dats m 0 c).before 3 t d = blockAt m c 3 t :=
  before3_of m (dats m 0 c) (A_eq m c 3) (after3 m c) t d
theorem before4 (c : Dev nD) (t : Fin cfg0.N) (d) : (dats m 0 c).before 4 t d = blockAt m c 4 t :=
  before4_of m (dats m 0 c) (A_eq m c 4) (after4 m c) t d

/-! ## The body obligation -/

/-- What the body is called with at tile `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any tile: the inputs' buffers hold their blocks, so `body_triple` applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has each
    staged array at what the proof data's write-backs leave and every other unscoped buffer as the region found it. -/
theorem run_region : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := A_eq m) (hΦ := fun _ _ => rfl)

/-- The frame statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_region m ρ)

end Cert.KernelIdeal.Frame

end
-- ==== Proof.Spec.lean ====
import Idealize.ShloMosaic.Lib.ValueIdx
import Idealize.ShloMosaic.PureOps.Ideal.Laws

/-!
# One step of a gated recurrent cell, entry by entry

The batch has 2048 rows; the input `x` and the previous hidden state `h` have 1024 columns each, and every one of the
four gates (forget, input, candidate, output) has a weight matrix with 2048 rows — the first 1024 meet the columns of
`x`, the last 1024 the columns of `h` — 1024 columns, and a bias vector of 1024 entries. The pre-activation of a gate at
`(r, q)` is

  `(∑ k < 1024, x (r, k) · W (k, q)) + (∑ k < 1024, h (r, k) · W (1024 + k, q)) + b q`,

the three smooth gates squash it with `σ v = ½ · tanh (½ · v) + ½`, the candidate with `tanh`, and

  `c' = σ f · c + σ i · tanh g`,   `h' = σ o · tanh c'`.

The same formulas are stated twice: over whole arrays (`pre`, `cellNext`, `hidNext`), and over one tile of 256 rows that
sees the four weight matrices side by side as one `[·, 4096]` array cut into its upper and lower 1024 rows and the four
biases side by side as one row (`tilePre`, `tileCell`, `tileHid`); gate `g` then owns the columns `1024·g … 1024·g + 1023`.
-/

noncomputable section

namespace Cert.Lstm

open Idealize.ShloMosaic Idealize.ShloMosaic.ValueIdx
open scoped BigOperators

/-- An `a × b` array of extended reals. -/
abbrev Mat (a b : ℕ) : Type := (⟨2, ![a, b]⟩ : Shape).Idx → EReal
/-- A vector of `a` extended reals. -/
abbrev Vct (a : ℕ) : Type := (⟨1, ![a]⟩ : Shape).Idx → EReal

/-- The number one half, as the binary32 word `0x3F000000` denotes it. -/
def half : EReal := Ideal.ofBits .f32 0x3F000000#32

/-- The smooth gate in its hyperbolic-tangent form: `½ · tanh (½ · v) + ½`. -/
def gate (v : EReal) : EReal := half * Ideal.tanh (half * v) + half

/-! ## Whole arrays -/

/-- A gate's pre-activation at row `r`, column `q`. -/
def pre (x h W : Mat 2048 1024) (b : Vct 1024) (r : Fin 2048) (q : Fin 1024) : EReal :=
  ((∑ k : Fin 1024, x (ix2 r k) * W (ix2 (⟨k.val, by omega⟩ : Fin 2048) q))
    + (∑ k : Fin 1024, h (ix2 r k) * W (ix2 (⟨1024 + k.val, by omega⟩ : Fin 2048) q))) + b (ix1 q)

/-- The new cell state at `(r, q)`. -/
def cellNext (x c h Wf : Mat 2048 1024) (bf : Vct 1024) (Wi : Mat 2048 1024) (bi : Vct 1024) (Wc : Mat 2048 1024) (bc : Vct 1024)
    (r : Fin 2048) (q : Fin 1024) : EReal :=
  gate (pre x h Wf bf r q) * c (ix2 r q) + gate (pre x h Wi bi r q) * Ideal.tanh (pre x h Wc bc r q)

/-- The new hidden state at `(r, q)`. -/
def hidNext (x c h Wf : Mat 2048 1024) (bf : Vct 1024) (Wi : Mat 2048 1024) (bi : Vct 1024) (Wc : Mat 2048 1024) (bc : Vct 1024)
    (Wo : Mat 2048 1024) (bo : Vct 1024) (r : Fin 2048) (q : Fin 1024) : EReal :=
  gate (pre x h Wo bo r q) * Ideal.tanh (cellNext x c h Wf bf Wi bi Wc bc r q)

/-- The new cell state as an array. -/
def cellArr (x c h Wf : Mat 2048 1024) (bf : Vct 1024) (Wi : Mat 2048 1024) (bi : Vct 1024) (Wc : Mat 2048 1024) (bc : Vct 1024) :
    Mat 2048 1024 := fun j => cellNext x c h Wf bf Wi bi Wc bc (j 0) (j 1)

/-- The new hidden state as an array. -/
def hidArr (x c h Wf : Mat 2048 1024) (bf : Vct 1024) (Wi : Mat 2048 1024) (bi : Vct 1024) (Wc : Mat 2048 1024) (bc : Vct 1024)
    (Wo : Mat 2048 1024) (bo : Vct 1024) : Mat 2048 1024 := fun j => hidNext x c h Wf bf Wi bi Wc bc Wo bo (j 0) (j 1)

theorem cellArr_ix2 (x c h Wf : Mat 2048 1024) (bf : Vct 1024) (Wi : Mat 2048 1024) (bi : Vct 1024) (Wc : Mat 2048 1024) (bc : Vct 1024)
    (r : Fin 2048) (q : Fin 1024) : cellArr x c h Wf bf Wi bi Wc bc (ix2 r q) = cellNext x c h Wf bf Wi bi Wc bc r q := rfl

theorem hidArr_ix2 (x c h Wf : Mat 2048 1024) (bf : Vct 1024) (Wi : Mat 2048 1024) (bi : Vct 1024) (Wc : Mat 2048 1024) (bc : Vct 1024)
    (Wo : Mat 2048 1024) (bo : Vct 1024) (r : Fin 2048) (q : Fin 1024) :
    hidArr x c h Wf bf Wi bi Wc bc Wo bo (ix2 r q) = hidNext x c h Wf bf Wi bi Wc bc Wo bo r q := rfl

/-! ## One tile of 256 rows -/

/-- The pre-activation at `(p, q)` of the gate whose columns start at `o`: `xt`, `ht` the tile's rows of `x` and `h`, `wx`, `wh`
    the upper and the lower 1024 rows of the four weight matrices side by side, `brow` the four biases side by side. -/
def tilePre (xt ht : Mat 256 1024) (wx wh : Mat 1024 4096) (brow : Mat 1 4096) (o : ℕ) (ho : o + 1024 ≤ 4096)
    (p : Fin 256) (q : Fin 1024) : EReal :=
  ((∑ k : Fin 1024, xt (ix2 p k) * wx (ix2 k (⟨o + q.val, by omega⟩ : Fin 4096)))
    + (∑ k : Fin 1024, ht (ix2 p k) * wh (ix2 k (⟨o + q.val, by omega⟩ : Fin 4096))))
    + brow (ix2 (0 : Fin 1) (⟨o + q.val, by omega⟩ : Fin 4096))

/-- The tile's new cell state at `(p, q)`; `ct` the tile's rows of the cell state. -/
def tileCell (xt ht ct : Mat 256 1024) (wx wh : Mat 1024 4096) (brow : Mat 1 4096) (p : Fin 256) (q : Fin 1024) : EReal :=
  gate (tilePre xt ht wx wh brow 0 (by omega) p q) * ct (ix2 p q)
    + gate (tilePre xt ht wx wh brow 1024 (by omega) p q) * Ideal.tanh (tilePre xt ht wx wh brow 2048 (by omega) p q)

/-- The tile's new hidden state at `(p, q)`. -/
def tileHid (xt ht ct : Mat 256 1024) (wx wh : Mat 1024 4096) (brow : Mat 1 4096) (p : Fin 256) (q : Fin 1024) : EReal :=
  gate (tilePre xt ht wx wh brow 3072 (by omega) p q) * Ideal.tanh (tileCell xt ht ct wx wh brow p q)

end Cert.Lstm

end
-- ==== Proof.Blocks.lean ====
import proofs.«141490_j4123168604852_2_alg».proof.Proof.FrameIdeal
import proofs.«141490_j4123168604852_2_alg».proof.Proof.Spec
import Idealize.ShloMosaic.Lib.Pipeline.Value
import Idealize.ShloMosaic.Lib.ValueIdx
import Idealize.ShloMosaic.Lib.StableHlo.Run

/-!
# Where the body's blocks sit in the arrays

Tile `t` of the region (`t < 8`) stages rows `256·t … 256·t + 255` of `x`, of the hidden state and of the cell state, and
writes back the same rows of the two results; the joined weights and the bias row are staged whole. This module reads each
staged block at an entry as an entry of the array the region found, says what the region found in the two arrays the host
lines made (the four weight matrices side by side, and the four bias vectors side by side as one row), and shows that the
eight row bands cover every entry of a result array.
-/

noncomputable section

namespace Cert.KernelIdeal.Blocks

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- There are eight tiles. -/
theorem tile_lt (t : Fin cfg0.N) : t.val < 8 := lt_of_lt_of_eq t.isLt N_0

/-! ## The two arrays the host lines made -/

/-- The region finds, as the staged weights, the four weight matrices joined side by side (the rounding to the narrower
    format is the identity on extended reals, and is kept as written). -/
theorem entry_weights (c : Dev nD) :
    @Eq (FVec Ideal S2048x4096 .bf16) (entry m c main_v3)
      (truncf (F := Ideal) .bf16 (concatenate S2048x4096 1 [⟨S2048x1024, m ((c : Thread nD τ).loc main_arg3)⟩, ⟨S2048x1024, m ((c : Thread nD τ).loc main_arg5)⟩, ⟨S2048x1024, m ((c : Thread nD τ).loc main_arg7)⟩, ⟨S2048x1024, m ((c : Thread nD τ).loc main_arg9)⟩]
          concatenates_S2048x1024_S2048x1024_S2048x1024_S2048x1024_S2048x4096_d1) bitsLt_bf16_f32) := by
  dsimp only [entry]
  simp only [hostOps0, List.flatten_cons, List.flatten_nil, List.append_nil, List.cons_append, List.nil_append]
  after_results
  rfl

/-- The region finds, as the staged bias row, the four bias vectors joined end to end and stood up as one row. -/
theorem entry_bias (c : Dev nD) :
    @Eq (FVec Ideal S1x4096 .f32) (entry m c main_v2)
      (shapeCast S1x4096 (concatenate S4096 0 [⟨S1024, m ((c : Thread nD τ).loc main_arg4)⟩, ⟨S1024, m ((c : Thread nD τ).loc main_arg6)⟩, ⟨S1024, m ((c : Thread nD τ).loc main_arg8)⟩, ⟨S1024, m ((c : Thread nD τ).loc main_arg10)⟩]
          concatenates_S1024_S1024_S1024_S1024_S4096_d0) shapeCasts_S4096_S1x4096) := by
  dsimp only [entry]
  simp only [hostOps0, List.flatten_cons, List.flatten_nil, List.append_nil, List.cons_append, List.nil_append]
  after_results
  rfl

/-! ## The block indices -/

/-- The printed index maps, decided over the eight tiles: the three row-tiled inputs and the two outputs sit at block
    `(t, 0)`, the two resident inputs at block `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-! ## The staged blocks read at an entry -/

/-- Row `p` of tile `t`'s block of `x` is row `256·t + p` of `x`. -/
theorem read_x (c : Dev nD) (t : Fin cfg0.N) (p : Fin 256) (k : Fin 1024) :
    blockAt m c 0 t (ix2 p k) = m ((c : Thread nD τ).loc main_arg0) (ix2 (⟨256 * t.val + p.val, by have := tile_lt t; omega⟩ : Fin 2048) k) := by
  show entry m c main_arg0 (((cfg0.win 0).blk t).view.emb (ix2 p k)) = _
  rw [entry_main_arg0]
  refine congrArg _ ?_
  funext a; apply Fin.ext
  match a with
  | ⟨0, _⟩ => show win0_0.index t (0 : Fin 2) * 256 + 1 * p.val = 256 * t.val + p.val; rw [(idx_facts t).1.1]; omega
  | ⟨1, _⟩ => show win0_0.index t (1 : Fin 2) * 1024 + 1 * k.val = k.val; rw [(idx_facts t).1.2]; omega

/-- The same for the hidden state. -/
theorem read_h (c : Dev nD) (t : Fin cfg0.N) (p : Fin 256) (k : Fin 1024) :
    blockAt m c 1 t (ix2 p k) = m ((c : Thread nD τ).loc main_arg2) (ix2 (⟨256 * t.val + p.val, by have := tile_lt t; omega⟩ : Fin 2048) k) := by
  show entry m c main_arg2 (((cfg0.win 1).blk t).view.emb (ix2 p k)) = _
  rw [entry_main_arg2]
  refine congrArg _ ?_
  funext a; apply Fin.ext
  match a with
  | ⟨0, _⟩ => show win0_1.index t (0 : Fin 2) * 256 + 1 * p.val = 256 * t.val + p.val; rw [(idx_facts t).2.1.1]; omega
  | ⟨1, _⟩ => show win0_1.index t (1 : Fin 2) * 1024 + 1 * k.val = k.val; rw [(idx_facts t).2.1.2]; omega

/-- The same for the cell state. -/
theorem read_c (c : Dev nD) (t : Fin cfg0.N) (p : Fin 256) (k : Fin 1024) :
    blockAt m c 2 t (ix2 p k) = m ((c : Thread nD τ).loc main_arg1) (ix2 (⟨256 * t.val + p.val, by have := tile_lt t; omega⟩ : Fin 2048) k) := by
  show entry m c main_arg1 (((cfg0.win 2).blk t).view.emb (ix2 p k)) = _
  rw [entry_main_arg1]
  refine congrArg _ ?_
  funext a; apply Fin.ext
  match a with
  | ⟨0, _⟩ => show win0_2.index t (0 : Fin 2) * 256 + 1 * p.val = 256 * t.val + p.val; rw [(idx_facts t).2.2.1.1]; omega
  | ⟨1, _⟩ => show win0_2.index t (1 : Fin 2) * 1024 + 1 * k.val = k.val; rw [(idx_facts t).2.2.1.2]; omega

/-- The upper half of the staged weights, at `(k, j)`, is the joined weights at `(k, j)`. -/
theorem read_upper (c : Dev nD) (t : Fin cfg0.N) (k : Fin 1024) (j : Fin 4096) :
    View.ld (blockAt m c 3 t) rUpper (ix2 k j) = (entry m c main_v3 : FVec Ideal S2048x4096 .bf16) (ix2 (⟨k.val, by omega⟩ : Fin 2048) j) := by
  show entry m c main_v3 (((cfg0.win 3).blk t).view.emb (rUpper.emb (ix2 k j))) = _
  refine congrArg _ ?_
  funext a; apply Fin.ext
  match a with
  | ⟨0, _⟩ => show win0_3.index t (0 : Fin 2) * 2048 + 1 * (0 + 1 * k.val) = k.val; rw [(idx_facts t).2.2.2.1.1]; omega
  | ⟨1, _⟩ => show win0_3.index t (1 : Fin 2) * 4096 + 1 * (0 + 1 * j.val) = j.val; rw [(idx_facts t).2.2.2.1.2]; omega

/-- The lower half, at `(k, j)`, is the joined weights at `(1024 + k, j)`. -/
theorem read_lower (c : Dev nD) (t : Fin cfg0.N) (k : Fin 1024) (j : Fin 4096) :
    View.ld (blockAt m c 3 t) rLower (ix2 k j) = (entry m c main_v3 : FVec Ideal S2048x4096 .bf16) (ix2 (⟨1024 + k.val, by omega⟩ : Fin 2048) j) := by
  show entry m c main_v3 (((cfg0.win 3).blk t).view.emb (rLower.emb (ix2 k j))) = _
  refine congrArg _ ?_
  funext a; apply Fin.ext
  match a with
  | ⟨0, _⟩ => show win0_3.index t (0 : Fin 2) * 2048 + 1 * (1024 + 1 * k.val) = 1024 + k.val; rw [(idx_facts t).2.2.2.1.1]; omega
  | ⟨1, _⟩ => show win0_3.index t (1 : Fin 2) * 4096 + 1 * (0 + 1 * j.val) = j.val; rw [(idx_facts t).2.2.2.1.2]; omega

/-- The staged bias row is the row the region found. -/
theorem read_bias (c : Dev nD) (t : Fin cfg0.N) (j : Fin 4096) :
    blockAt m c 4 t (ix2 (0 : Fin 1) j) = (entry m c main_v2 : FVec Ideal S1x4096 .f32) (ix2 (0 : Fin 1) j) := by
  show entry m c main_v2 (((cfg0.win 4).blk t).view.emb (ix2 (0 : Fin 1) j)) = _
  refine congrArg _ ?_
  funext a; apply Fin.ext
  match a with
  | ⟨0, _⟩ => show win0_4.index t (0 : Fin 2) * 1 + 1 * 0 = 0; rw [(idx_facts t).2.2.2.2.1.1]
  | ⟨1, _⟩ => show win0_4.index t (1 : Fin 2) * 4096 + 1 * j.val = j.val; rw [(idx_facts t).2.2.2.2.1.2]; omega

/-! ## Where a result block sits, and the cover -/

/-- Entry `(p, q)` of tile `t`'s block of the first result is entry `(256·t + p, q)` of the array. -/
theorem emb_cell (t : Fin cfg0.N) (p : Fin 256) (q : Fin 1024) :
    ((cfg0.win 5).blk t).view.emb (ix2 p q) = ix2 (⟨256 * t.val + p.val, by have := tile_lt t; omega⟩ : Fin 2048) q := by
  funext a; apply Fin.ext
  match a with
  | ⟨0, _⟩ => show win0_5.index t (0 : Fin 2) * 256 + 1 * p.val = 256 * t.val + p.val; rw [(idx_facts t).2.2.2.2.2.1.1]; omega
  | ⟨1, _⟩ => show win0_5.index t (1 : Fin 2) * 1024 + 1 * q.val = q.val; rw [(idx_facts t).2.2.2.2.2.1.2]; omega

/-- The same for the second result. -/
theorem emb_hid (t : Fin cfg0.N) (p : Fin 256) (q : Fin 1024) :
    ((cfg0.win 6).blk t).view.emb (ix2 p q) = ix2 (⟨256 * t.val + p.val, by have := tile_lt t; omega⟩ : Fin 2048) q := by
  funext a; apply Fin.ext
  match a with
  | ⟨0, _⟩ => show win0_6.index t (0 : Fin 2) * 256 + 1 * p.val = 256 * t.val + p.val; rw [(idx_facts t).2.2.2.2.2.2.1]; omega
  | ⟨1, _⟩ => show win0_6.index t (1 : Fin 2) * 1024 + 1 * q.val = q.val; rw [(idx_facts t).2.2.2.2.2.2.2]; omega

/-- An entry of the first result array is in tile `t`'s block iff each coordinate is in the block's range. -/
theorem mem_blk_cell (t : Fin cfg0.N) (i : S2048x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v4_0).slice (win0_5.rect t)).set ↔ _
  rw [View.set_slice_whole, Rect.mem_set_unit]
  exact Iff.rfl

theorem mem_blk_hid (t : Fin cfg0.N) (i : S2048x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v4_1).slice (win0_6.rect t)).set ↔ _
  rw [View.set_slice_whole, Rect.mem_set_unit]
  exact Iff.rfl

/-- The tile that holds row `r` is `r / 256`. -/
def tileOf (i : S2048x1024.Idx) : Fin cfg0.N := ⟨(i 0).val / 256, by
  have h : (i 0).val < 2048 := (i 0).isLt
  show (i 0).val / 256 < grid0.N
  rw [N_0]; omega⟩

/-- Every entry of the first result array is written back by some tile. -/
theorem cover_cell (i : S2048x1024.Idx) : ∃ t : Fin cfg0.N, (cfg0.win 5).flush t = true ∧ i ∈ ((cfg0.win 5).blk t).view.set := by
  have hi0 : (i 0).val < 2048 := (i 0).isLt
  have hi1 : (i 1).val < 1024 := (i 1).isLt
  refine ⟨tileOf i, flush0_5 _, ?_⟩
  rw [mem_blk_cell]
  intro a
  match a with
  | ⟨0, _⟩ =>
    show win0_5.index (tileOf i) (0 : Fin 2) * 256 ≤ (i 0).val ∧ (i 0).val < win0_5.index (tileOf i) (0 : Fin 2) * 256 + 256
    rw [(idx_facts (tileOf i)).2.2.2.2.2.1.1]; show (i 0).val / 256 * 256 ≤ (i 0).val ∧ (i 0).val < (i 0).val / 256 * 256 + 256; omega
  | ⟨1, _⟩ =>
    show win0_5.index (tileOf i) (1 : Fin 2) * 1024 ≤ (i 1).val ∧ (i 1).val < win0_5.index (tileOf i) (1 : Fin 2) * 1024 + 1024
    rw [(idx_facts (tileOf i)).2.2.2.2.2.1.2]; omega

/-- And of the second. -/
theorem cover_hid (i : S2048x1024.Idx) : ∃ t : Fin cfg0.N, (cfg0.win 6).flush t = true ∧ i ∈ ((cfg0.win 6).blk t).view.set := by
  have hi0 : (i 0).val < 2048 := (i 0).isLt
  have hi1 : (i 1).val < 1024 := (i 1).isLt
  refine ⟨tileOf i, flush0_6 _, ?_⟩
  rw [mem_blk_hid]
  intro a
  match a with
  | ⟨0, _⟩ =>
    show win0_6.index (tileOf i) (0 : Fin 2) * 256 ≤ (i 0).val ∧ (i 0).val < win0_6.index (tileOf i) (0 : Fin 2) * 256 + 256
    rw [(idx_facts (tileOf i)).2.2.2.2.2.2.1]; show (i 0).val / 256 * 256 ≤ (i 0).val ∧ (i 0).val < (i 0).val / 256 * 256 + 256; omega
  | ⟨1, _⟩ =>
    show win0_6.index (tileOf i) (1 : Fin 2) * 1024 ≤ (i 1).val ∧ (i 1).val < win0_6.index (tileOf i) (1 : Fin 2) * 1024 + 1024
    rw [(idx_facts (tileOf i)).2.2.2.2.2.2.2]; omega

end Cert.KernelIdeal.Blocks

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibTileLayout.lean ====
import Idealize.ShloMosaic.Lib.ValueLayout
import Idealize.ShloMosaic.PureOps.Ideal.Laws

/-!
# Columns, one-entry blocks and sums along one axis, read at an index

A tile's loss is first summed along each row, the row sums are stood up as a column, and the column is summed into
one number, which is then spread over a small block. Each of these steps moves numbers without changing them, or adds
them up along one axis. Here each step is read at an index written by its coordinates:

* a column `[a, 1]` spread over `[a, b]` has, at `(p, c)`, the column's entry `p`;
* a one-entry block `[1, 1]` spread over `[a, b]` has that entry everywhere;
* a vector `[a]` stood up as a column `[a, 1]` has, at `(i, 0)`, the vector's entry `i`;
* the sum of an `[a, b]` array along axis 1, started from zero, is at `p` the sum over `q < b` of the entry `(p, q)`,
  and along axis 0 it is at `c` the sum over `p < a` of the entry `(p, c)`.
-/

namespace Cert.TileLayout

open Idealize.ShloMosaic Idealize.ShloMosaic.ValueIdx
open scoped BigOperators

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry block `[1, 1]` broadcast to `[a, b]` reads that one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array along axis 1, started from zero, is at `p` the sum over the row `p`. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  refine Finset.sum_congr rfl fun q _ => congrArg src ?_
  funext c
  refine Fin.ext ?_
  match c with
  | ⟨0, _⟩ => rfl
  | ⟨1, _⟩ => rfl

/-- The sum of an `[a, b]` array along axis 0, started from zero, is at `c` the sum over the column `c`. -/
theorem sum_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  show ∑ p : Fin a, src (h.lift (ix1 c) p) = _
  refine Finset.sum_congr rfl fun p _ => congrArg src ?_
  funext d
  refine Fin.ext ?_
  match d with
  | ⟨0, _⟩ => rfl
  | ⟨1, _⟩ => rfl

end Cert.TileLayout
-- ==== Proof.LibRowLayout.lean ====
import Idealize.ShloMosaic.Lib.Pipeline.Value
import Idealize.ShloMosaic.Lib.ValueLayout
import Idealize.ShloMosaic.PureOps.Ideal.Laws
import proofs.«141490_j4123168604852_2_alg».proof.Proof.LibTileLayout

/-!
# Two-axis arrays handled row by row: slices of columns, pieces joined side by side, row sums as a column

A program that treats every row of an `[a, b]` array by itself cuts columns out of it, sums along a row, stands the sums up
as a column `[a, 1]`, and joins columns and blocks side by side again. Each of these steps only moves numbers (or adds up
one row), and here each is read at an index `(p, q)` written by its coordinates, for any extents:

* `slice_cols_apply`: the slice of columns `o … o + b' − 1` has at `(p, k)` the entry `(p, o + k)`;
* `concat_axis1_apply`: pieces joined along axis 1 have at `(p, q)` the entry `(p, r)` of the piece whose columns start
  at `pre` and hold `q = pre + r`;
* `sumCol_apply`: the sums along axis 1 (from a zero word, at the exact instance) stood up as a column have at `(p, 0)`
  the sum of row `p`;
* `column_apply`: a vector `[a]` stood up as a column `[a, 1]` by `broadcast_in_dim` has at `(p, 0)` the entry `p`.
-/

namespace Cert.RowLayout

open Idealize.ShloMosaic Idealize.ShloMosaic.ValueIdx
open scoped BigOperators

variable {α : Type}

/-- A slice of whole columns: at `(p, k)` it has the operand's entry `(p, o + k)`. -/
theorem slice_cols_apply {a b b' : ℕ} (o : ℕ) (x : (⟨2, ![a, b]⟩ : Shape).Idx → α)
    (h : (⟨2, ![a, b]⟩ : Shape).Slices ![0, o] ⟨2, ![a, b']⟩) (p : Fin a) (k : Fin b') (hk : o + k.val < b) :
    extractStridedSlice ⟨2, ![a, b']⟩ ![0, o] x h (ix2 p k) = x (ix2 p ⟨o + k.val, hk⟩) :=
  extractStridedSlice_apply _ x h _ _ fun ax =>
    match ax with
    | ⟨0, _⟩ => (Nat.zero_add _).symm
    | ⟨1, _⟩ => rfl

/-- Pieces joined along axis 1: the entry `(p, q)` is the entry `(p, r)` of piece `k`, when the pieces before it are `pre`
    columns wide and `q = pre + r`. -/
theorem concat_axis1_apply {a n b₁ : ℕ} (xs : List ((s : Shape) × (s.Idx → α)))
    (h : Shape.Concatenates (xs.map (·.1)) ⟨2, ![a, n]⟩ 1) (k : ℕ) (hk : k < xs.length)
    (x₁ : (⟨2, ![a, b₁]⟩ : Shape).Idx → α) (hxk : xs[k] = ⟨⟨2, ![a, b₁]⟩, x₁⟩) (pre : ℕ)
    (hpre : (((xs.take k).map (·.1)).map fun s =>
      if h : s.rank = (⟨2, ![a, n]⟩ : Shape).rank then s.size ((1 : Fin (⟨2, ![a, n]⟩ : Shape).rank).cast h.symm) else 0).sum = pre)
    (p : Fin a) (q : Fin n) (r : Fin b₁) (hq : pre + r.val = q.val) :
    concatenate ⟨2, ![a, n]⟩ 1 xs h (ix2 p q) = x₁ (ix2 p r) :=
  concatenate_apply_piece 1 xs h (ix2 p q) k hk _ x₁ hxk rfl pre hpre (ix2 p r)
    (fun b hb => match b with
      | ⟨0, _⟩ => rfl
      | ⟨1, _⟩ => absurd rfl hb) hq

/-- The sums along axis 1, started from a zero word, stood up as a column: at `(p, u)` the sum of row `p`. -/
theorem sumCol_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) (u : Fin 1) :
    shapeCast ⟨2, ![a, 1]⟩ (multiReduction .add [1] ⟨1, ![a]⟩ src acc h hφ hacc) hc (ix2 p u) = ∑ q : Fin b, src (ix2 p q) :=
  (Cert.TileLayout.shapeCast_a_a1_apply _ hc p u).trans (Cert.TileLayout.sum_axis1_apply src acc h hφ hacc p)

/-- A vector stood up as a column by `broadcast_in_dim` along axis 0: at `(p, u)` the vector's entry `p`. -/
theorem column_apply {a : ℕ} (ha : a ≠ 1) (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply _ h x _ _ fun ax =>
    match ax with
    | ⟨0, _⟩ => by
      show p.val = if a = 1 then 0 else p.val
      rw [if_neg ha]

end Cert.RowLayout
-- ==== Proof.TilePayload.lean ====
import proofs.«141490_j4123168604852_2_alg».proof.Proof.Gen.KernelIdeal.Skeleton
import proofs.«141490_j4123168604852_2_alg».proof.Proof.Spec
import proofs.«141490_j4123168604852_2_alg».proof.Proof.LibPlainDot
import proofs.«141490_j4123168604852_2_alg».proof.Proof.LibRowLayout

/-!
# The arithmetic of one tile, entry by entry

One tile of 256 rows multiplies its rows of `x` by the upper 1024 rows of the four weight matrices laid side by side,
its rows of `h` by the lower 1024 rows, adds the two products and the row of the four biases, and so holds all four
pre-activations in one `[256, 4096]` array: gate `g` in the columns `1024·g … 1024·g + 1023`. Cutting these four
column blocks out and squashing them gives the three smooth gates and the candidate, from which the new cell state
and the new hidden state follow. Here each of these arrays is read at an entry `(p, q)` and found to be the number
the entry-by-entry specification names.

The vectors are typed as the program types them (arrays of elements of a float format, which over the extended reals
are plain arrays of extended reals); the specification's `Mat a b` is the same type, so no conversion appears.
-/

noncomputable section

namespace Cert.Lstm.Tile

open Idealize.ShloMosaic Idealize.ShloMosaic.ValueIdx Cert.KernelIdeal Cert.KernelIdeal.Gen
open scoped BigOperators

variable (v0 v2 : Vec Ideal S256x1024 .f32) (v4 v6 : Vec Ideal S1024x4096 .bf16) (v11 : Vec Ideal S1x4096 .f32)
  (v41 : Vec Ideal S256x1024 .f32)

/-- The four pre-activations side by side, at row `p` and column `c`: the two plain products and the bias row's entry.
    Rounding the left operands to a narrower format changes nothing over the extended reals, the casts are to the same
    shape, and the bias row is repeated down the rows. -/
theorem pay3_apply (p : Fin 256) (c : Fin 4096) :
    k0_pay3 (F := Ideal) v0 v2 v4 v6 v11 (ix2 p c)
      = ((∑ k : Fin 1024, v0 (ix2 p k) * v4 (ix2 k c)) + (∑ k : Fin 1024, v2 (ix2 p k) * v6 (ix2 k c)))
          + v11 (ix2 (0 : Fin 1) c) := by
  unfold k0_pay3
  rw [shapeCast_self v4, shapeCast_self v6, shapeCast_self v11]
  refine congrArg₂ (· + ·) (congrArg₂ (· + ·) ?_ ?_) ?_
  · exact Cert.LibPlainDot.matmul_zero_apply _ ⟨rfl, rfl, rfl, rfl, rfl, rfl⟩ none _ _ p c
  · exact Cert.LibPlainDot.matmul_zero_apply _ ⟨rfl, rfl, rfl, rfl, rfl, rfl⟩ none _ _ p c
  · exact broadcastTo_1b_ab_apply v11 _ p c

/-- The block of 1024 columns that starts at column `o`, at `(p, q)`: the pre-activation of the gate that owns it. -/
theorem slice_apply (o : ℕ) (h : S256x4096.Slices ![0, o] S256x1024) (ho : o + 1024 ≤ 4096) (p : Fin 256) (q : Fin 1024) :
    extractStridedSlice S256x1024 ![0, o] (k0_pay3 (F := Ideal) v0 v2 v4 v6 v11) h (ix2 p q)
      = tilePre v0 v2 v4 v6 v11 o ho p q :=
  (Cert.RowLayout.slice_cols_apply o (k0_pay3 (F := Ideal) v0 v2 v4 v6 v11) h p q (by have := q.isLt; omega)).trans
    (pay3_apply v0 v2 v4 v6 v11 p _)

/-- The forget gate at `(p, q)`. -/
theorem pay4_apply (p : Fin 256) (q : Fin 1024) :
    k0_pay4 (F := Ideal) v0 v2 v4 v6 v11 (ix2 p q) = gate (tilePre v0 v2 v4 v6 v11 0 (by omega) p q) := by
  unfold k0_pay4
  exact congrArg (fun v => half * Ideal.tanh (half * v) + half) (slice_apply v0 v2 v4 v6 v11 0 _ (by omega) p q)

/-- The input gate at `(p, q)`. -/
theorem pay5_apply (p : Fin 256) (q : Fin 1024) :
    k0_pay5 (F := Ideal) v0 v2 v4 v6 v11 (ix2 p q) = gate (tilePre v0 v2 v4 v6 v11 1024 (by omega) p q) := by
  unfold k0_pay5
  exact congrArg (fun v => half * Ideal.tanh (half * v) + half) (slice_apply v0 v2 v4 v6 v11 1024 _ (by omega) p q)

/-- The candidate at `(p, q)`. -/
theorem pay6_apply (p : Fin 256) (q : Fin 1024) :
    k0_pay6 (F := Ideal) v0 v2 v4 v6 v11 (ix2 p q) = Ideal.tanh (tilePre v0 v2 v4 v6 v11 2048 (by omega) p q) := by
  unfold k0_pay6
  exact congrArg Ideal.tanh (slice_apply v0 v2 v4 v6 v11 2048 _ (by omega) p q)

/-- The output gate without its final one half, at `(p, q)`. -/
theorem pay7_apply (p : Fin 256) (q : Fin 1024) :
    k0_pay7 (F := Ideal) v0 v2 v4 v6 v11 (ix2 p q)
      = half * Ideal.tanh (half * tilePre v0 v2 v4 v6 v11 3072 (by omega) p q) := by
  unfold k0_pay7
  exact congrArg (fun v => half * Ideal.tanh (half * v)) (slice_apply v0 v2 v4 v6 v11 3072 _ (by omega) p q)

/-- The tile's new cell state at `(p, q)`. -/
theorem pay_cell (p : Fin 256) (q : Fin 1024) :
    k0_pay1 (F := Ideal) (k0_pay4 v0 v2 v4 v6 v11) (k0_pay5 v0 v2 v4 v6 v11) (k0_pay6 v0 v2 v4 v6 v11) v41 (ix2 p q)
      = tileCell v0 v2 v41 v4 v6 v11 p q := by
  unfold k0_pay1
  exact congrArg₂ (· + ·) (congrArg (· * v41 (ix2 p q)) (pay4_apply v0 v2 v4 v6 v11 p q))
    (congrArg₂ (· * ·) (pay5_apply v0 v2 v4 v6 v11 p q) (pay6_apply v0 v2 v4 v6 v11 p q))

/-- The tile's new hidden state at `(p, q)`: the output gate, its one half now added, times the squashed new cell
    state. -/
theorem pay_hid (p : Fin 256) (q : Fin 1024) :
    k0_pay2 (F := Ideal) (k0_pay4 v0 v2 v4 v6 v11) (k0_pay5 v0 v2 v4 v6 v11) (k0_pay6 v0 v2 v4 v6 v11)
        (k0_pay7 v0 v2 v4 v6 v11) v41 (ix2 p q)
      = tileHid v0 v2 v41 v4 v6 v11 p q := by
  unfold k0_pay2
  exact congrArg₂ (· * ·) (congrArg (· + half) (pay7_apply v0 v2 v4 v6 v11 p q))
    (congrArg Ideal.tanh (pay_cell v0 v2 v4 v6 v11 v41 p q))

end Cert.Lstm.Tile

end
-- ==== Proof.Joined.lean ====
import Idealize.ShloMosaic.Lib.Pipeline.Value
import Idealize.ShloMosaic.Lib.ValueLayout
import proofs.«141490_j4123168604852_2_alg».proof.Proof.LibRowLayout

/-!
# Four arrays joined side by side, read at an entry

Four `[2048, 1024]` arrays joined along their columns make one `[2048, 4096]` array whose column `1024·g + q` is
column `q` of the `g`-th array; four vectors of 1024 entries joined end to end and then laid out as one row
`[1, 4096]` have at `(0, 1024·g + q)` the entry `q` of the `g`-th vector. Both are statements about where numbers
sit; no arithmetic is done on them, so the entries may be of any type.
-/

namespace Cert.Lstm.Joined

open Idealize.ShloMosaic Idealize.ShloMosaic.ValueIdx

variable {α : Type}

/-! ## Four matrices side by side -/

section Wide

variable (W0 W1 W2 W3 : (⟨2, ![2048, 1024]⟩ : Shape).Idx → α)
  (h : Shape.Concatenates [(⟨2, ![2048, 1024]⟩ : Shape), ⟨2, ![2048, 1024]⟩, ⟨2, ![2048, 1024]⟩, ⟨2, ![2048, 1024]⟩]
    ⟨2, ![2048, 4096]⟩ 1)

/-- Columns `0 … 1023` are the first matrix. -/
theorem wide0 (k : Fin 2048) (q : Fin 1024) :
    concatenate ⟨2, ![2048, 4096]⟩ 1 [⟨_, W0⟩, ⟨_, W1⟩, ⟨_, W2⟩, ⟨_, W3⟩] h (ix2 k (⟨0 + q.val, by omega⟩ : Fin 4096))
      = W0 (ix2 k q) :=
  Cert.RowLayout.concat_axis1_apply [⟨_, W0⟩, ⟨_, W1⟩, ⟨_, W2⟩, ⟨_, W3⟩] h 0 (by show (0 : ℕ) < 4; omega) W0 rfl 0 rfl k _ q rfl

/-- Columns `1024 … 2047` are the second matrix. -/
theorem wide1 (k : Fin 2048) (q : Fin 1024) :
    concatenate ⟨2, ![2048, 4096]⟩ 1 [⟨_, W0⟩, ⟨_, W1⟩, ⟨_, W2⟩, ⟨_, W3⟩] h (ix2 k (⟨1024 + q.val, by omega⟩ : Fin 4096))
      = W1 (ix2 k q) :=
  Cert.RowLayout.concat_axis1_apply [⟨_, W0⟩, ⟨_, W1⟩, ⟨_, W2⟩, ⟨_, W3⟩] h 1 (by show (1 : ℕ) < 4; omega) W1 rfl 1024 rfl k _ q rfl

/-- Columns `2048 … 3071` are the third matrix. -/
theorem wide2 (k : Fin 2048) (q : Fin 1024) :
    concatenate ⟨2, ![2048, 4096]⟩ 1 [⟨_, W0⟩, ⟨_, W1⟩, ⟨_, W2⟩, ⟨_, W3⟩] h (ix2 k (⟨2048 + q.val, by omega⟩ : Fin 4096))
      = W2 (ix2 k q) :=
  Cert.RowLayout.concat_axis1_apply [⟨_, W0⟩, ⟨_, W1⟩, ⟨_, W2⟩, ⟨_, W3⟩] h 2 (by show (2 : ℕ) < 4; omega) W2 rfl 2048 rfl k _ q rfl

/-- Columns `3072 … 4095` are the fourth matrix. -/
theorem wide3 (k : Fin 2048) (q : Fin 1024) :
    concatenate ⟨2, ![2048, 4096]⟩ 1 [⟨_, W0⟩, ⟨_, W1⟩, ⟨_, W2⟩, ⟨_, W3⟩] h (ix2 k (⟨3072 + q.val, by omega⟩ : Fin 4096))
      = W3 (ix2 k q) :=
  Cert.RowLayout.concat_axis1_apply [⟨_, W0⟩, ⟨_, W1⟩, ⟨_, W2⟩, ⟨_, W3⟩] h 3 (by show (3 : ℕ) < 4; omega) W3 rfl 3072 rfl k _ q rfl

end Wide

/-! ## Four vectors end to end, laid out as one row -/

/-- Vectors joined end to end: the entry `q` is the entry `r` of piece `k`, when the pieces before it hold `pre` entries
    and `q = pre + r`. -/
theorem concat_rank1_apply {n b₁ : ℕ} (xs : List ((s : Shape) × (s.Idx → α)))
    (h : Shape.Concatenates (xs.map (·.1)) ⟨1, ![n]⟩ 0) (k : ℕ) (hk : k < xs.length)
    (x₁ : (⟨1, ![b₁]⟩ : Shape).Idx → α) (hxk : xs[k] = ⟨⟨1, ![b₁]⟩, x₁⟩) (pre : ℕ)
    (hpre : (((xs.take k).map (·.1)).map fun s =>
      if h : s.rank = (⟨1, ![n]⟩ : Shape).rank then s.size ((0 : Fin (⟨1, ![n]⟩ : Shape).rank).cast h.symm) else 0).sum = pre)
    (q : Fin n) (r : Fin b₁) (hq : pre + r.val = q.val) :
    concatenate ⟨1, ![n]⟩ 0 xs h (ix1 q) = x₁ (ix1 r) :=
  concatenate_apply_piece 0 xs h (ix1 q) k hk _ x₁ hxk rfl pre hpre (ix1 r)
    (fun b hb => match b with
      | ⟨0, _⟩ => absurd rfl hb) hq

section Row

variable (b0 b1 b2 b3 : (⟨1, ![1024]⟩ : Shape).Idx → α)
  (hc : Shape.Concatenates [(⟨1, ![1024]⟩ : Shape), ⟨1, ![1024]⟩, ⟨1, ![1024]⟩, ⟨1, ![1024]⟩] ⟨1, ![4096]⟩ 0)
  (hs : (⟨1, ![4096]⟩ : Shape).ShapeCasts ⟨2, ![1, 4096]⟩)

/-- Entries `0 … 1023` of the row are the first vector. -/
theorem row0 (q : Fin 1024) :
    shapeCast ⟨2, ![1, 4096]⟩ (concatenate ⟨1, ![4096]⟩ 0 [⟨_, b0⟩, ⟨_, b1⟩, ⟨_, b2⟩, ⟨_, b3⟩] hc) hs
        (ix2 (0 : Fin 1) (⟨0 + q.val, by omega⟩ : Fin 4096))
      = b0 (ix1 q) :=
  (shapeCast_a_1a_apply _ hs 0 _).trans (concat_rank1_apply [⟨_, b0⟩, ⟨_, b1⟩, ⟨_, b2⟩, ⟨_, b3⟩] hc 0 (by show (0 : ℕ) < 4; omega) b0 rfl 0 rfl _ q rfl)

/-- Entries `1024 … 2047` of the row are the second vector. -/
theorem row1 (q : Fin 1024) :
    shapeCast ⟨2, ![1, 4096]⟩ (concatenate ⟨1, ![4096]⟩ 0 [⟨_, b0⟩, ⟨_, b1⟩, ⟨_, b2⟩, ⟨_, b3⟩] hc) hs
        (ix2 (0 : Fin 1) (⟨1024 + q.val, by omega⟩ : Fin 4096))
      = b1 (ix1 q) :=
  (shapeCast_a_1a_apply _ hs 0 _).trans (concat_rank1_apply [⟨_, b0⟩, ⟨_, b1⟩, ⟨_, b2⟩, ⟨_, b3⟩] hc 1 (by show (1 : ℕ) < 4; omega) b1 rfl 1024 rfl _ q rfl)

/-- Entries `2048 … 3071` of the row are the third vector. -/
theorem row2 (q : Fin 1024) :
    shapeCast ⟨2, ![1, 4096]⟩ (concatenate ⟨1, ![4096]⟩ 0 [⟨_, b0⟩, ⟨_, b1⟩, ⟨_, b2⟩, ⟨_, b3⟩] hc) hs
        (ix2 (0 : Fin 1) (⟨2048 + q.val, by omega⟩ : Fin 4096))
      = b2 (ix1 q) :=
  (shapeCast_a_1a_apply _ hs 0 _).trans (concat_rank1_apply [⟨_, b0⟩, ⟨_, b1⟩, ⟨_, b2⟩, ⟨_, b3⟩] hc 2 (by show (2 : ℕ) < 4; omega) b2 rfl 2048 rfl _ q rfl)

/-- Entries `3072 … 4095` of the row are the fourth vector. -/
theorem row3 (q : Fin 1024) :
    shapeCast ⟨2, ![1, 4096]⟩ (concatenate ⟨1, ![4096]⟩ 0 [⟨_, b0⟩, ⟨_, b1⟩, ⟨_, b2⟩, ⟨_, b3⟩] hc) hs
        (ix2 (0 : Fin 1) (⟨3072 + q.val, by omega⟩ : Fin 4096))
      = b3 (ix1 q) :=
  (shapeCast_a_1a_apply _ hs 0 _).trans (concat_rank1_apply [⟨_, b0⟩, ⟨_, b1⟩, ⟨_, b2⟩, ⟨_, b3⟩] hc 3 (by show (3 : ℕ) < 4; omega) b3 rfl 3072 rfl _ q rfl)

end Row

end Cert.Lstm.Joined
-- ==== Proof.Final.lean ====
import proofs.«141490_j4123168604852_2_alg».proof.Proof.Blocks
import proofs.«141490_j4123168604852_2_alg».proof.Proof.TilePayload
import proofs.«141490_j4123168604852_2_alg».proof.Proof.Joined
import proofs.«141490_j4123168604852_2_alg».proof.Proof.Spec

/-!
# What the region leaves in the two result arrays

Tile `t` writes back rows `256·t … 256·t + 255`. What it writes at `(p, q)` is the body's arithmetic on the tile's blocks
(`tileCell`, `tileHid`); reading each block where it sits in its array, and the joined weights and bias row gate by gate,
that is the array-level formula (`cellNext`, `hidNext`) at `(256·t + p, q)`. The eight bands cover the arrays, so after the
region each result array is the whole-array function of the eleven arguments.
-/

noncomputable section

namespace Cert.KernelIdeal.Final

open Cert.KernelIdeal Cert.KernelIdeal.Gen Cert.KernelIdeal.Frame Cert.KernelIdeal.Blocks Cert.Lstm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## One gate's pre-activation, from the tile to the arrays -/

/-- Gate 0 (columns `0 … 1023` of the joined arrays) on tile `t` is the gate with weights `main_arg3` and bias `main_arg4`. -/
theorem tilePre_gate0 (c : Dev nD) (t : Fin cfg0.N) (p : Fin 256) (q : Fin 1024) :
    tilePre (blockAt m c 0 t) (blockAt m c 1 t) (View.ld (blockAt m c 3 t) rUpper) (View.ld (blockAt m c 3 t) rLower) (blockAt m c 4 t) 0 (by omega) p q
      = pre (m ((c : Thread nD τ).loc main_arg0)) (m ((c : Thread nD τ).loc main_arg2)) (m ((c : Thread nD τ).loc main_arg3)) (m ((c : Thread nD τ).loc main_arg4)) (⟨256 * t.val + p.val, by have := tile_lt t; omega⟩ : Fin 2048) q := by
  unfold tilePre pre
  simp only [read_x, read_h, read_upper, read_lower, read_bias]
  rw [entry_weights, entry_bias]
  simp only [truncf_apply, Cert.Lstm.Joined.wide0, Cert.Lstm.Joined.row0]

/-- Gate 1 (columns `1024 … 2047` of the joined arrays) on tile `t` is the gate with weights `main_arg5` and bias `main_arg6`. -/
theorem tilePre_gate1 (c : Dev nD) (t : Fin cfg0.N) (p : Fin 256) (q : Fin 1024) :
    tilePre (blockAt m c 0 t) (blockAt m c 1 t) (View.ld (blockAt m c 3 t) rUpper) (View.ld (blockAt m c 3 t) rLower) (blockAt m c 4 t) 1024 (by omega) p q
      = pre (m ((c : Thread nD τ).loc main_arg0)) (m ((c : Thread nD τ).loc main_arg2)) (m ((c : Thread nD τ).loc main_arg5)) (m ((c : Thread nD τ).loc main_arg6)) (⟨256 * t.val + p.val, by have := tile_lt t; omega⟩ : Fin 2048) q := by
  unfold tilePre pre
  simp only [read_x, read_h, read_upper, read_lower, read_bias]
  rw [entry_weights, entry_bias]
  simp only [truncf_apply, Cert.Lstm.Joined.wide1, Cert.Lstm.Joined.row1]

/-- Gate 2 (columns `2048 … 3071` of the joined arrays) on tile `t` is the gate with weights `main_arg7` and bias `main_arg8`. -/
theorem tilePre_gate2 (c : Dev nD) (t : Fin cfg0.N) (p : Fin 256) (q : Fin 1024) :
    tilePre (blockAt m c 0 t) (blockAt m c 1 t) (View.ld (blockAt m c 3 t) rUpper) (View.ld (blockAt m c 3 t) rLower) (blockAt m c 4 t) 2048 (by omega) p q
      = pre (m ((c : Thread nD τ).loc main_arg0)) (m ((c : Thread nD τ).loc main_arg2)) (m ((c : Thread nD τ).loc main_arg7)) (m ((c : Thread nD τ).loc main_arg8)) (⟨256 * t.val + p.val, by have := tile_lt t; omega⟩ : Fin 2048) q := by
  unfold tilePre pre
  simp only [read_x, read_h, read_upper, read_lower, read_bias]
  rw [entry_weights, entry_bias]
  simp only [truncf_apply, Cert.Lstm.Joined.wide2, Cert.Lstm.Joined.row2]

/-- Gate 3 (columns `3072 … 4095` of the joined arrays) on tile `t` is the gate with weights `main_arg9` and bias `main_arg10`. -/
theorem tilePre_gate3 (c : Dev nD) (t : Fin cfg0.N) (p : Fin 256) (q : Fin 1024) :
    tilePre (blockAt m c 0 t) (blockAt m c 1 t) (View.ld (blockAt m c 3 t) rUpper) (View.ld (blockAt m c 3 t) rLower) (blockAt m c 4 t) 3072 (by omega) p q
      = pre (m ((c : Thread nD τ).loc main_arg0)) (m ((c : Thread nD τ).loc main_arg2)) (m ((c : Thread nD τ).loc main_arg9)) (m ((c : Thread nD τ).loc main_arg10)) (⟨256 * t.val + p.val, by have := tile_lt t; omega⟩ : Fin 2048) q := by
  unfold tilePre pre
  simp only [read_x, read_h, read_upper, read_lower, read_bias]
  rw [entry_weights, entry_bias]
  simp only [truncf_apply, Cert.Lstm.Joined.wide3, Cert.Lstm.Joined.row3]

/-! ## What a tile writes back -/

/-- Tile `t` writes back its band of the new cell state. -/
theorem flushed_cell (c : Dev nD) (t : Fin cfg0.N) :
    (dats m 0 c).flushed 5 t = ((cfg0.win 5).blk t).view.read (Elt Ideal) (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show (cfg0.win 5).cut (grid0.coords t) ((dats m 0 c).after 5 t) = _
  rw [after5]
  unfold outCell
  rw [View.canon_unit_zero zero_offsets]
  simp only [View.ld_unit_zero (S := S256x1024) zero_offsets, View.ld_unit_zero (S := S1x4096) zero_offsets]
  funext j
  obtain ⟨p, q, rfl⟩ : ∃ (p : Fin 256) (q : Fin 1024), j = ix2 p q := ⟨j 0, j 1, eq_ix2 j⟩
  show k0_pay1 (F := Ideal) _ _ _ _ (ix2 p q) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 5).blk t).view.emb (ix2 p q))
  rw [emb_cell, cellArr_ix2]
  refine (Cert.Lstm.Tile.pay_cell (blockAt m c 0 t) (blockAt m c 1 t) (View.ld (blockAt m c 3 t) rUpper) (View.ld (blockAt m c 3 t) rLower) (blockAt m c 4 t) (blockAt m c 2 t) p q).trans ?_
  unfold tileCell cellNext
  rw [tilePre_gate0, tilePre_gate1, tilePre_gate2, read_c]

/-- Tile `t` writes back its band of the new hidden state. -/
theorem flushed_hid (c : Dev nD) (t : Fin cfg0.N) :
    (dats m 0 c).flushed 6 t = ((cfg0.win 6).blk t).view.read (Elt Ideal) (hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show (cfg0.win 6).cut (grid0.coords t) ((dats m 0 c).after 6 t) = _
  rw [after6]
  unfold outHid
  rw [View.canon_unit_zero zero_offsets]
  simp only [View.ld_unit_zero (S := S256x1024) zero_offsets, View.ld_unit_zero (S := S1x4096) zero_offsets]
  funext j
  obtain ⟨p, q, rfl⟩ : ∃ (p : Fin 256) (q : Fin 1024), j = ix2 p q := ⟨j 0, j 1, eq_ix2 j⟩
  show k0_pay2 (F := Ideal) _ _ _ _ _ (ix2 p q) = hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 6).blk t).view.emb (ix2 p q))
  rw [emb_hid, hidArr_ix2]
  refine (Cert.Lstm.Tile.pay_hid (blockAt m c 0 t) (blockAt m c 1 t) (View.ld (blockAt m c 3 t) rUpper) (View.ld (blockAt m c 3 t) rLower) (blockAt m c 4 t) (blockAt m c 2 t) p q).trans ?_
  unfold tileHid hidNext tileCell cellNext
  rw [tilePre_gate0, tilePre_gate1, tilePre_gate2, tilePre_gate3, read_c]

/-! ## The arrays after the region -/

theorem final_cell (c : Dev nD) : (dats m 0 c).arrAt 5 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 5 _ (fun t _ => flushed_cell m c t) cover_cell

theorem final_hid (c : Dev nD) : (dats m 0 c).arrAt 6 cfg0.N = hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 6 _ (fun t _ => flushed_hid m c t) cover_hid

/-- The program's run, read: both results at their whole-array functions of the arguments, the arguments unchanged. -/
theorem run : θ_run defs (onTc (τ := τ) (main (F := Ideal))) ⟨m, fun _ => 0, ρ⟩ fun r => ∀ c : Dev nD,
      r.2.mem ((c.tc : Thread nD τ).loc main_v4_0) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_v4_1) = hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 5).trans (final_cell m c), ((h c).1 6).trans (final_hid m c),
      ((h c).1 0).trans (((dats m 0 c).arrAt_in 0 rfl _).trans ((A_eq m c 0).trans (entry_main_arg0 m c))),
      ((h c).1 2).trans (((dats m 0 c).arrAt_in 2 rfl _).trans ((A_eq m c 2).trans (entry_main_arg1 m c))),
      ((h c).1 1).trans (((dats m 0 c).arrAt_in 1 rfl _).trans ((A_eq m c 1).trans (entry_main_arg2 m c))),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c)⟩)
    (run_region m ρ)

end Cert.KernelIdeal.Final

end
-- ==== Proof.Sigmoid.lean ====
import Idealize.ShloMosaic.Lib.IdealHost
import proofs.«141490_j4123168604852_2_alg».proof.Proof.Spec

/-!
# The smooth gate, spelt two ways

The logistic function `1 / (1 + e^(-v))` and the form `½ · tanh (½ · v) + ½` agree at every extended real `v`.
At a real `r`, write `a = e^(r/2)`: then `tanh (r/2) = (a − a⁻¹) / (a + a⁻¹)`, so
`½ · tanh (r/2) + ½ = a / (a + a⁻¹) = 1 / (1 + a⁻²) = 1 / (1 + e^(-r))`. At `-∞` the exponential of `+∞` is `+∞`, the
quotient is `0`, and on the other side `tanh (-∞) = -1` gives `-½ + ½ = 0`; at `+∞` the exponential of `-∞` is `0`, the
quotient is `1`, and `tanh (+∞) = 1` gives `½ + ½ = 1`. No finiteness is assumed.
-/

noncomputable section

namespace Cert.Lstm

open Idealize.ShloMosaic

/-- The binary32 word `0x3F000000` denotes the real one half. -/
theorem half_eq : half = (((1 : ℝ) / 2 : ℝ) : EReal) := by
  unfold half
  simp [Ideal.ofBits, Ideal.ieee, -EReal.coe_mul]; norm_num

/-- Over the reals: `1 / (1 + e^(-r)) = ½ · tanh (½ · r) + ½`. -/
theorem real_logistic_eq (r : ℝ) : (1 + Real.exp (-r))⁻¹ = 1 / 2 * Real.tanh (1 / 2 * r) + 1 / 2 := by
  have ha : 0 < Real.exp (1 / 2 * r) := Real.exp_pos _
  have h1 : Real.exp (-(1 / 2 * r)) = (Real.exp (1 / 2 * r))⁻¹ := Real.exp_neg _
  have h2 : Real.exp (-r) = (Real.exp (1 / 2 * r))⁻¹ * (Real.exp (1 / 2 * r))⁻¹ := by
    rw [← h1, ← Real.exp_add]; congr 1; ring
  rw [Real.tanh_eq_sinh_div_cosh, Real.sinh_eq, Real.cosh_eq, h1, h2]
  generalize Real.exp (1 / 2 * r) = a at ha
  field_simp
  ring

/-- The logistic function is the gate, at every extended real. -/
theorem logistic_eq_gate (v : EReal) : Ideal.logistic v = gate v := by
  have hpos : (0 : ℝ) < 1 / 2 := by norm_num
  have hm1 : (-1 : EReal) = ((-1 : ℝ) : EReal) := by rw [EReal.coe_neg, EReal.coe_one]
  have h1 : (1 : EReal) = ((1 : ℝ) : EReal) := EReal.coe_one.symm
  unfold gate
  rw [half_eq]
  induction v using EReal.rec with
  | bot =>
    rw [Ideal.logistic_bot, EReal.coe_mul_bot_of_pos hpos, Ideal.tanh_bot, hm1, ← EReal.coe_mul, ← EReal.coe_add]
    norm_num
  | coe r =>
    rw [Ideal.logistic_coe, ← EReal.coe_mul, Ideal.tanh_coe, ← EReal.coe_mul, ← EReal.coe_add, real_logistic_eq]
  | top =>
    rw [Ideal.logistic_top, EReal.coe_mul_top_of_pos hpos, Ideal.tanh_top, h1, ← EReal.coe_mul, ← EReal.coe_add]
    norm_num

/-- The quotient the reference spells, with its two ones given as the binary32 word `0x3F800000`, is the gate. -/
theorem div_one_eq_gate (v : EReal) :
    Ideal.div (Ideal.ofBits .f32 0x3F800000#32) (Ideal.ofBits .f32 0x3F800000#32 + Ideal.exp (-v)) = gate v := by
  rw [Ideal.ofBits_one_f32]
  exact logistic_eq_gate v

end Cert.Lstm

end
-- ==== Proof.RefSide.lean ====
import proofs.«141490_j4123168604852_2_alg».proof.Proof.Gen.ReferenceIdeal.Read
import proofs.«141490_j4123168604852_2_alg».proof.Proof.Spec
import proofs.«141490_j4123168604852_2_alg».proof.Proof.LibRowLayout
import proofs.«141490_j4123168604852_2_alg».proof.Proof.Sigmoid

/-!
# The reference computes the cell's formulas

The reference joins `x` and `h` side by side into one `[2048, 2048]` array, multiplies it with each gate's weight matrix,
adds the gate's bias to every row, squashes three of the four results with `1 / (1 + e^(-v))` and the fourth with `tanh`,
and combines them into the new cell state and the new hidden state. Read at an entry `(r, q)`:

* the product's sum over the 2048 joined columns splits into the sum over the first 1024 (the columns of `x`, against
  the upper rows of the weights) plus the sum over the last 1024 (the columns of `h`, against the lower rows) — a fact
  about finite sums in a commutative monoid, so it needs nothing of the summands;
* `1 / (1 + e^(-v))` is the gate `½ · tanh (½ · v) + ½` at every extended real `v`.

So the two result arrays are `cellArr` and `hidArr`, for all inputs.
-/

noncomputable section

namespace Cert.Lstm.Ref

open Cert.ReferenceIdeal Cert.ReferenceIdeal.Gen Cert.ReferenceIdeal.Read
open Idealize.ShloMosaic Idealize.ShloMosaic.ValueIdx Idealize.ShloMosaic.StableHlo
open scoped BigOperators

/-- A `[2048, 1024]` argument of the reference. -/
abbrev M : Type := (⟨S2048x1024, .f32⟩ : BufTy).Contents (Elt Ideal)
/-- A `[1024]` argument of the reference. -/
abbrev V : Type := (⟨S1024, .f32⟩ : BufTy).Contents (Elt Ideal)

/-! ## The joined array -/

/-- Column `k < 1024` of the joined array is column `k` of `x`. -/
theorem joined_left (x0 x2 : M) (r : Fin 2048) (k : Fin 1024) :
    val_main_v0 (F := Ideal) x0 x2 (ix2 r (⟨k.val, by omega⟩ : Fin 2048)) = x0 (ix2 r k) := by
  unfold val_main_v0
  exact Cert.RowLayout.concat_axis1_apply _ _ 0 (by simp) x0 rfl 0 rfl r _ k (Nat.zero_add _)

/-- Column `1024 + k` of the joined array is column `k` of `h`. -/
theorem joined_right (x0 x2 : M) (r : Fin 2048) (k : Fin 1024) :
    val_main_v0 (F := Ideal) x0 x2 (ix2 r (⟨1024 + k.val, by omega⟩ : Fin 2048)) = x2 (ix2 r k) := by
  unfold val_main_v0
  exact Cert.RowLayout.concat_axis1_apply _ _ 1 (by simp) x2 rfl 1024 rfl r _ k rfl

/-! ## One gate's pre-activation -/

/-- The product of the joined array with a weight matrix, at `(r, q)`: the sum over the 2048 joined columns is the sum
    over the columns of `x` plus the sum over the columns of `h`. -/
theorem dot_read (x0 x2 W : M) (r : Fin 2048) (q : Fin 1024) :
    val_main_v1 (F := Ideal) x0 x2 W (ix2 r q)
      = (∑ k : Fin 1024, x0 (ix2 r k) * W (ix2 (⟨k.val, by omega⟩ : Fin 2048) q))
        + (∑ k : Fin 1024, x2 (ix2 r k) * W (ix2 (⟨1024 + k.val, by omega⟩ : Fin 2048) q)) := by
  rw [val_main_v1_apply]
  refine (Fin.sum_univ_add (a := 1024) (b := 1024)
    (fun k : Fin 2048 => val_main_v0 (F := Ideal) x0 x2 (lidx_main_v1 (ix2 r q) k) * W (ridx_main_v1 (ix2 r q) k))).trans ?_
  refine congrArg₂ (· + ·) (Finset.sum_congr rfl fun k _ => ?_) (Finset.sum_congr rfl fun k _ => ?_)
  · have el : lidx_main_v1 (ix2 r q) (Fin.castAdd 1024 k) = ix2 r (⟨k.val, by omega⟩ : Fin 2048) :=
      funext fun a => match a with | ⟨0, _⟩ => rfl | ⟨1, _⟩ => rfl
    have er : ridx_main_v1 (ix2 r q) (Fin.castAdd 1024 k) = ix2 (⟨k.val, by omega⟩ : Fin 2048) q :=
      funext fun a => match a with | ⟨0, _⟩ => rfl | ⟨1, _⟩ => rfl
    show val_main_v0 (F := Ideal) x0 x2 (lidx_main_v1 (ix2 r q) (Fin.castAdd 1024 k)) * W (ridx_main_v1 (ix2 r q) (Fin.castAdd 1024 k)) = _
    rw [el, er, joined_left]
  · have el : lidx_main_v1 (ix2 r q) (Fin.natAdd 1024 k) = ix2 r (⟨1024 + k.val, by omega⟩ : Fin 2048) :=
      funext fun a => match a with | ⟨0, _⟩ => rfl | ⟨1, _⟩ => rfl
    have er : ridx_main_v1 (ix2 r q) (Fin.natAdd 1024 k) = ix2 (⟨1024 + k.val, by omega⟩ : Fin 2048) q :=
      funext fun a => match a with | ⟨0, _⟩ => rfl | ⟨1, _⟩ => rfl
    show val_main_v0 (F := Ideal) x0 x2 (lidx_main_v1 (ix2 r q) (Fin.natAdd 1024 k)) * W (ridx_main_v1 (ix2 r q) (Fin.natAdd 1024 k)) = _
    rw [el, er, joined_right]

/-- The bias, stood up as one row and repeated down the 2048 rows, has at `(r, q)` the bias's entry `q`. -/
theorem bias_read (b : V) (r : Fin 2048) (q : Fin 1024) : val_main_v3 (F := Ideal) b (ix2 r q) = b (ix1 q) := by
  rw [val_main_v3_apply, val_main_v2_apply]
  exact congrArg b (funext fun a => match a with | ⟨0, _⟩ => rfl)

/-- Product plus bias is the pre-activation. -/
theorem pre_read (x0 x2 W : M) (b : V) (r : Fin 2048) (q : Fin 1024) :
    val_main_v4 (F := Ideal) x0 x2 W b (ix2 r q) = pre x0 x2 W b r q := by
  rw [val_main_v4_apply, dot_read, bias_read]
  rfl

/-! ## The squashed gates -/

/-- `1 / (1 + e^(-v))` of the pre-activation is the gate of the pre-activation. -/
theorem gate_read (x0 x2 W : M) (b : V) (r : Fin 2048) (q : Fin 1024) :
    val_main_v10 (F := Ideal) x0 x2 W b (ix2 r q) = gate (pre x0 x2 W b r q) := by
  rw [val_main_v10_apply, val_main_v9_apply, val_main_cst_0_apply, val_main_v8_apply, val_main_v7_apply,
    val_main_cst_apply, val_main_v6_apply, val_main_v5_apply, pre_read]
  exact div_one_eq_gate _

/-- The candidate: `tanh` of the pre-activation. -/
theorem cand_read (x0 x2 W : M) (b : V) (r : Fin 2048) (q : Fin 1024) :
    val_main_v25 (F := Ideal) x0 x2 W b (ix2 r q) = Ideal.tanh (pre x0 x2 W b r q) := by
  rw [val_main_v25_apply]
  show Ideal.tanh (val_main_v4 (F := Ideal) x0 x2 W b (ix2 r q)) = _
  rw [pre_read]

/-! ## The two results -/

/-- The new cell state at `(r, q)`. -/
theorem cell_read (x0 x1 x2 x3 : M) (x4 : V) (x5 : M) (x6 : V) (x7 : M) (x8 : V) (r : Fin 2048) (q : Fin 1024) :
    val_main_v38 (F := Ideal) x0 x1 x2 x3 x4 x5 x6 x7 x8 (ix2 r q) = cellNext x0 x1 x2 x3 x4 x5 x6 x7 x8 r q := by
  rw [val_main_v38_apply, val_main_v36_apply, val_main_v37_apply, cand_read]
  show val_main_v10 (F := Ideal) x0 x2 x3 x4 (ix2 r q) * x1 (ix2 r q)
      + val_main_v10 (F := Ideal) x0 x2 x5 x6 (ix2 r q) * Ideal.tanh (pre x0 x2 x7 x8 r q) = _
  rw [gate_read, gate_read]
  rfl

/-- The new hidden state at `(r, q)`. -/
theorem hid_read (x0 x1 x2 x3 : M) (x4 : V) (x5 : M) (x6 : V) (x7 : M) (x8 : V) (x9 : M) (x10 : V) (r : Fin 2048) (q : Fin 1024) :
    val_main_v40 (F := Ideal) x0 x1 x2 x3 x4 x5 x6 x7 x8 x9 x10 (ix2 r q) = hidNext x0 x1 x2 x3 x4 x5 x6 x7 x8 x9 x10 r q := by
  rw [val_main_v40_apply, val_main_v39_apply, cell_read]
  show val_main_v10 (F := Ideal) x0 x2 x9 x10 (ix2 r q) * Ideal.tanh (cellNext x0 x1 x2 x3 x4 x5 x6 x7 x8 r q) = _
  rw [gate_read]
  rfl

/-- The reference's new cell state is `cellArr`. -/
theorem ref_cell (x0 x1 x2 x3 : M) (x4 : V) (x5 : M) (x6 : V) (x7 : M) (x8 : V) :
    val_main_v38 (F := Ideal) x0 x1 x2 x3 x4 x5 x6 x7 x8 = cellArr x0 x1 x2 x3 x4 x5 x6 x7 x8 := by
  funext i
  obtain ⟨r, q, rfl⟩ : ∃ (r : Fin 2048) (q : Fin 1024), i = ix2 r q := ⟨i 0, i 1, eq_ix2 i⟩
  exact cell_read x0 x1 x2 x3 x4 x5 x6 x7 x8 r q

/-- The reference's new hidden state is `hidArr`. -/
theorem ref_hid (x0 x1 x2 x3 : M) (x4 : V) (x5 : M) (x6 : V) (x7 : M) (x8 : V) (x9 : M) (x10 : V) :
    val_main_v40 (F := Ideal) x0 x1 x2 x3 x4 x5 x6 x7 x8 x9 x10 = hidArr x0 x1 x2 x3 x4 x5 x6 x7 x8 x9 x10 := by
  funext i
  obtain ⟨r, q, rfl⟩ : ∃ (r : Fin 2048) (q : Fin 1024), i = ix2 r q := ⟨i 0, i 1, eq_ix2 i⟩
  exact hid_read x0 x1 x2 x3 x4 x5 x6 x7 x8 x9 x10 r q

end Cert.Lstm.Ref

end
-- ==== Proof.lean ====
/-
  One step of a gated recurrent cell on a batch of 2048 rows: a pipelined kernel over 8 tiles of 256 rows, fed the four
  gates' weights joined side by side and rounded once, against the plain array program.

  Over the extended reals the two compute the same arrays. A gate's pre-activation in the kernel is the product of the
  tile's rows of `x` with the upper 1024 rows of the joined weights, plus the product of the tile's rows of the hidden
  state with the lower 1024 rows, plus the joined bias row; in the reference it is one product of `x` and the hidden
  state joined side by side with the gate's own 2048-row matrix, plus the gate's bias. A sum over 2048 columns is the sum
  over the first 1024 plus the sum over the last 1024 — a fact about sums in a commutative monoid, so it holds with
  infinities — and column `1024·g + q` of the joined weights is column `q` of gate `g`'s matrix. The kernel squashes the
  three smooth gates with `½ · tanh (½ · v) + ½`, the reference with `1 / (1 + e^(-v))`: one function on every extended real,
  the two ends included. Rounding to a narrower float format is the identity here. So no finiteness of the inputs is used.

  The three frame statements: the kernel program's (at the word level and at the extended reals, the same text) by
  running its body once symbolically and the pipeline's launch theorem; the reference's from its generated run. The
  idealization rewrote nothing, so it preserves nothing that needs proof.
-/
import proofs.«141490_j4123168604852_2_alg».proof.Defs
import proofs.«141490_j4123168604852_2_alg».proof.Proof.Gen.Kernel
import proofs.«141490_j4123168604852_2_alg».proof.Proof.Gen.KernelIdeal
import proofs.«141490_j4123168604852_2_alg».proof.Proof.Gen.ReferenceIdeal
import proofs.«141490_j4123168604852_2_alg».proof.Proof.Gen.Pre_finite_inputs
import proofs.«141490_j4123168604852_2_alg».proof.Proof.Gen.ReferenceIdeal.Run
import proofs.«141490_j4123168604852_2_alg».proof.Proof.Gen.ReferenceIdeal.Read
import proofs.«141490_j4123168604852_2_alg».proof.Proof.FrameBits
import proofs.«141490_j4123168604852_2_alg».proof.Proof.Final
import proofs.«141490_j4123168604852_2_alg».proof.Proof.RefSide
import Idealize.ShloMosaic.Adequacy
import Idealize.ShloMosaic.Init

noncomputable section

namespace Cert.Proof

open Idealize.ShloMosaic Idealize.SL.Sem

section Claims

variable [hKernel : Cert.Kernel.Facts] [hKernelIdeal : Cert.KernelIdeal.Facts] [hReferenceIdeal : Cert.ReferenceIdeal.Facts]
  [hPre : Cert.Pre_finite_inputs.Facts]

/-- The word-level kernel program runs to its end and leaves its arguments alone. -/
theorem frame_kernel : Cert.frame_Kernel := fun m ρ _ => Cert.Kernel.Frame.frame m ρ

/-- So does the program read over the extended reals. -/
theorem frame_kernelIdeal : Cert.frame_KernelIdeal := fun m ρ _ => Cert.KernelIdeal.Frame.frame m ρ

/-- The reference's frame is its run with the results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the new cell state and the new hidden state at the
    same whole-array functions of the arguments. -/
theorem algebraic : Cert.algebraic_KernelIdeal_ReferenceIdeal := by
  intro m ρ m' ρ' _ hagree
  refine ⟨fun c => Cert.Lstm.cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Lstm.hidArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Final.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  refine ⟨(h c).1.trans ?_, (h c).2.1.trans ?_, (h c).2.2⟩
  · rw [Cert.ReferenceIdeal.Read.val_main_v38_eq, Cert.Lstm.Ref.ref_cell, a0, a1, a2, a3, a4, a5, a6, a7, a8]
  · rw [Cert.ReferenceIdeal.Read.val_main_v40_eq, Cert.Lstm.Ref.ref_hid, a0, a1, a2, a3, a4, a5, a6, a7, a8, a9, a10]

end Claims

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
